-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S1024x64 : Shape := ⟨2, ![1024, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32768x64 .f32) (main_arg1 : FVec F S1024x64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S32768x64 : Shape := ⟨2, ![32768, 64]⟩
abbrev S1024x64 : Shape := ⟨2, ![1024, 64]⟩
abbrev S64x32768 : Shape := ⟨2, ![64, 32768]⟩
abbrev S64x1024 : Shape := ⟨2, ![64, 1024]⟩
abbrev S32768x1024 : Shape := ⟨2, ![32768, 1024]⟩
abbrev S64x2048 : Shape := ⟨2, ![64, 2048]⟩
abbrev S2048x1024 : Shape := ⟨2, ![2048, 1024]⟩
abbrev S2048 : Shape := ⟨1, ![2048]⟩
abbrev S1x2048 : Shape := ⟨2, ![1, 2048]⟩
abbrev S1024 : Shape := ⟨1, ![1024]⟩
abbrev S1x1024 : Shape := ⟨2, ![1, 1024]⟩
abbrev S66x2048 : Shape := ⟨2, ![66, 2048]⟩
abbrev S66x1024 : Shape := ⟨2, ![66, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S64x32768, .f32⟩
  | .hbm, ⟨3, _⟩ => ⟨S64x1024, .f32⟩
  | .hbm, ⟨4, _⟩ => ⟨S32768x1024, .f32⟩
  | .local _ .vmem, ⟨0, _⟩ => ⟨S64x2048, .f32⟩
  | .local _ .vmem, ⟨1, _⟩ => ⟨S64x2048, .f32⟩
  | .local _ .vmem, ⟨2, _⟩ => ⟨S64x1024, .f32⟩
  | .local _ .vmem, ⟨3, _⟩ => ⟨S2048x1024, .f32⟩
  | .local _ .vmem, ⟨4, _⟩ => ⟨S2048x1024, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S32768x64_S64x32768_1_0 : S32768x64.Transposes [1, 0] S64x32768
  transposes_S1024x64_S64x1024_1_0 : S1024x64.Transposes [1, 0] S64x1024
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S64x2048_S2048 : S64x2048.Reduces [0] S2048
  shapeCasts_S2048_S1x2048 : S2048.ShapeCasts S1x2048
  reduces_S64x1024_S1024 : S64x1024.Reduces [0] S1024
  shapeCasts_S1024_S1x1024 : S1024.ShapeCasts S1x1024
  concatenates_S64x2048_S1x2048_S1x2048_S66x2048_d0 : Shape.Concatenates [S64x2048, S1x2048, S1x2048] S66x2048 0
  concatenates_S64x1024_S1x1024_S1x1024_S66x1024_d0 : Shape.Concatenates [S64x1024, S1x1024, S1x1024] S66x1024 0
  inb_S2048x1024_S2048x1024_0_0 : ∀ a, (![0, 0] : Fin 2 → Nat) a + S2048x1024.size a ≤ S2048x1024.size a
  h_S2048x1024 : 0 < S2048x1024.numel
  dot_S66x2048_S66x1024_S2048x1024_0_0_1_1_n_n_wf : DotDims.WF S66x2048 S66x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x32768.size a
  hwx0_0 : ∀ i : grid0.Coords, EltTy.bits .f32 = 32 ∨ (Rect.block (s := S64x32768) S64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

def dot_S66x2048_S66x1024_S2048x1024_0_0_1_1_n_n : DotDims S66x2048 S66x1024 S2048x1024 where
  lhsContracting := [0]
  rhsContracting := [0]
  lhsNonContracting := [1]
  rhsNonContracting := [1]
  lhsBatch := []
  rhsBatch := []
  wf := dot_S66x2048_S66x1024_S2048x1024_0_0_1_1_n_n_wf

abbrev win0_0 : Pipeline.Window sig grid0 :=
  Pipeline.Window.ofSpec (Memref.whole main_call0_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x64 : Shape := ⟨2, ![32768, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S64x1024 : Shape := ⟨2, ![64, 1024]⟩
abbrev S32768x1024 : Shape := ⟨2, ![32768, 1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S64x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1024, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  reducesTo_S32768x64_S32768_d1 : S32768x64.ReducesTo [1] S32768
  h_S_ : 0 < S_.numel
  bcast_S32768_S32768x1_0 : S32768.BroadcastsInDim S32768x1 (![0] : Fin 1 → Fin S32768x1.rank)
  reducesTo_S1024x64_S1024_d1 : S1024x64.ReducesTo [1] S1024
  transposes_S1024x64_S64x1024_1_0 : S1024x64.Transposes [1, 0] S64x1024
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S32768x64_S64x1024_S32768x1024_1_0_0_1_n_n_wf : DotDims.WF S32768x64 S64x1024 S32768x1024 [1] [0] [0] [1] [] []

variable [Facts₀]

def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf

class Facts : Prop extends Facts₀ where

variable [Facts]
-- ==== Proof.Spec.lean ====
/-
  The negative squared distance between every key and every code, as two arrangements of one sum.

  For keys `K : [32768, 64]` and codes `E : [1024, 64]`, entry (n, k) of the result is −‖K n − E k‖².
  The reference expands the square: −((‖K n‖² − 2·⟨K n, E k⟩) + ‖E k‖²).
  The kernel folds the two norms into ONE contraction of length 66: the 64 channels carry (K n c + K n c)·E k c, and two
  extra rows carry (0 − ‖K n‖²)·1 and 1·(0 − ‖E k‖²).
  On real numbers the two are equal by distributing the sign; on the extended reals that step needs every entry to be
  a real number (−(a − b) = b − a fails at ∞ − ∞), which is what the precondition gives.
-/
import Idealize.ShloMosaic.PureOps.Ideal
import Idealize.ShloMosaic.Lib.ValueIdx

noncomputable section

namespace Cert.SqDist

open Idealize.ShloMosaic Idealize.ShloMosaic.ValueIdx

/-- The three array shapes: keys, codes, result. -/
abbrev SKeys : Shape := ⟨2, ![32768, 64]⟩
abbrev SCodes : Shape := ⟨2, ![1024, 64]⟩
abbrev SOut : Shape := ⟨2, ![32768, 1024]⟩

/-- The words of 0, 1 and 2 as the programs spell them. -/
abbrev wZero : EReal := Ideal.ofBits .f32 0x00000000#32
abbrev wOne : EReal := Ideal.ofBits .f32 0x3F800000#32
abbrev wTwo : EReal := Ideal.ofBits .f32 0x40000000#32

/-- Row n of the keys dotted with row k of the codes. -/
def cross (K : SKeys.Idx → EReal) (E : SCodes.Idx → EReal) (n : Fin 32768) (k : Fin 1024) : EReal :=
  ∑ c : Fin 64, K (ix2 n c) * E (ix2 k c)

/-- The squared norm of row n of the keys, and of row k of the codes. -/
def keyNorm (K : SKeys.Idx → EReal) (n : Fin 32768) : EReal := ∑ c : Fin 64, K (ix2 n c) * K (ix2 n c)
def codeNorm (E : SCodes.Idx → EReal) (k : Fin 1024) : EReal := ∑ c : Fin 64, E (ix2 k c) * E (ix2 k c)

/-- The reference's arrangement: −((‖K n‖² − 2·⟨K n, E k⟩) + ‖E k‖²), each norm a sum started from the zero word. -/
def expanded (K : SKeys.Idx → EReal) (E : SCodes.Idx → EReal) : SOut.Idx → EReal := fun i =>
  -(((wZero + keyNorm K (i 0)) - wTwo * cross K E (i 0) (i 1)) + (wZero + codeNorm E (i 1)))

/-- The kernel's arrangement: one contraction over 66 rows, the last two carrying the norms against unit rows. -/
def augmented (K : SKeys.Idx → EReal) (E : SCodes.Idx → EReal) : SOut.Idx → EReal := fun i =>
  ((∑ c : Fin 64, (K (ix2 (i 0) c) + K (ix2 (i 0) c)) * E (ix2 (i 1) c)) + (wZero - keyNorm K (i 0)) * wOne)
    + wOne * (wZero - codeNorm E (i 1))

/-- The identity on real numbers, over any finite channel set. -/
theorem real_identity {ι : Type} [Fintype ι] (x e : ι → ℝ) :
    ((∑ c, (x c + x c) * e c) + (0 - ∑ c, x c * x c) * 1) + 1 * (0 - ∑ c, e c * e c)
      = -(((0 + ∑ c, x c * x c) - 2 * ∑ c, x c * e c) + (0 + ∑ c, e c * e c)) := by
  have h : ∑ c, (x c + x c) * e c = 2 * ∑ c, x c * e c := by
    rw [Finset.mul_sum]; exact Finset.sum_congr rfl fun c _ => by ring
  rw [h]; ring

/-- A finite sum of real numbers, read on the extended reals, is the sum of the readings. -/
theorem coe_sum {ι : Type} [Fintype ι] (f : ι → ℝ) : (∑ c, (f c : EReal)) = ((∑ c, f c : ℝ) : EReal) := by
  classical
  induction (Finset.univ : Finset ι) using Finset.induction_on with
  | empty => simp
  | insert a s ha ih => rw [Finset.sum_insert ha, Finset.sum_insert ha, ih, EReal.coe_add]

/-- The same identity on the extended reals, for entries that are real numbers. -/
theorem ereal_identity {ι : Type} [Fintype ι] (x e : ι → ℝ) :
    ((∑ c, ((x c : EReal) + x c) * e c) + ((0 : EReal) - ∑ c, (x c : EReal) * x c) * 1) + 1 * ((0 : EReal) - ∑ c, (e c : EReal) * e c)
      = -((((0 : EReal) + ∑ c, (x c : EReal) * x c) - 2 * ∑ c, (x c : EReal) * e c) + ((0 : EReal) + ∑ c, (e c : EReal) * e c)) := by
  have h2 : (2 : EReal) = ((2 : ℝ) : EReal) := rfl
  simp only [← EReal.coe_add, ← EReal.coe_mul, coe_sum, ← EReal.coe_zero, ← EReal.coe_one, h2, ← EReal.coe_sub, ← EReal.coe_neg]
  exact congrArg _ (real_identity x e)

end Cert.SqDist

end
-- ==== Proof.Payload.lean ====
/-
  What the kernel body computes from one block of transposed keys `x0 : [64, 2048]` (channel c, token p) and the whole
  transposed code table `x1 : [64, 1024]` (channel c, code q), read at one entry (p, q) of its [2048, 1024] result.

  The body builds two operands of 66 rows. Rows 0..63 of the left one are x0 + x0, row 64 is 0 − Σ_c x0(c,p)², row 65 is 1.
  Rows 0..63 of the right one are x1, row 64 is 1, row 65 is 0 − Σ_c x1(c,q)². It contracts them over the 66 rows into a
  zero accumulator. So entry (p, q) is
    Σ_c (x0(c,p) + x0(c,p))·x1(c,q)  +  (0 − Σ_c x0(c,p)²)·1  +  1·(0 − Σ_c x1(c,q)²).
  Nothing here needs the entries to be finite: a sum over 66 rows is split into 64 + 1 + 1 terms, nothing more.
-/
import proofs.«154272_g72164040507785_cont_sun_m_596_19_alg».proof.Proof.Gen.KernelIdeal.Skeleton
import proofs.«154272_g72164040507785_cont_sun_m_596_19_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.SqDist.Body

open Cert.KernelIdeal Cert.KernelIdeal.Gen Idealize.ShloMosaic Idealize.ShloMosaic.ValueIdx

/-- A sum over n + 2 terms is the sum of the first n and the last two. -/
theorem sum_two_more {M : Type} [AddCommMonoid M] (n : ℕ) (f : Fin (n + 2) → M) :
    ∑ k, f k = ((∑ c : Fin n, f ⟨c.val, by omega⟩) + f ⟨n, by omega⟩) + f ⟨n + 1, by omega⟩ := by
  rw [Fin.sum_univ_castSucc, Fin.sum_univ_castSucc]; rfl

/-! ## A column sum of squares: the lane reduction over the 64 channels -/

/-- The reduction of a [64, 2048] block over its channel axis, at token p, is the sum over the channels. -/
theorem colSum2048 (v : FVec Ideal S64x2048 .f32) (p : Fin 2048) :
    multiReduction (F := Ideal) .add [0] S2048 v 0x00000000#32 reduces_S64x2048_S2048 (.inl rfl) rfl (ix1 p)
      = ∑ c : Fin 64, v (ix2 c p) := by
  refine (Ideal.multiReduction_add_single v 0x00000000#32 reduces_S64x2048_S2048 (.inl rfl) rfl (ix1 p)).trans ?_
  exact Finset.sum_congr rfl fun c _ => congrArg v (funext fun a => Fin.ext (by
    match a with | ⟨0, _⟩ => rfl | ⟨1, _⟩ => rfl))

/-- The same over the [64, 1024] code table, at code q. -/
theorem colSum1024 (v : FVec Ideal S64x1024 .f32) (q : Fin 1024) :
    multiReduction (F := Ideal) .add [0] S1024 v 0x00000000#32 reduces_S64x1024_S1024 (.inl rfl) rfl (ix1 q)
      = ∑ c : Fin 64, v (ix2 c q) := by
  refine (Ideal.multiReduction_add_single v 0x00000000#32 reduces_S64x1024_S1024 (.inl rfl) rfl (ix1 q)).trans ?_
  exact Finset.sum_congr rfl fun c _ => congrArg v (funext fun a => Fin.ext (by
    match a with | ⟨0, _⟩ => rfl | ⟨1, _⟩ => rfl))

/-! ## Three pieces stacked along the row axis, read at a row -/

section Stack
variable {α : Type}

/-- Rows 0..63 of a [64, 2048] piece stacked over two [1, 2048] pieces are the first piece's rows. -/
theorem stack_top2048 (a : S64x2048.Idx → α) (b d : S1x2048.Idx → α)
    (h : Shape.Concatenates [S64x2048, S1x2048, S1x2048] S66x2048 0) (r : Fin 64) (p : Fin 2048) :
    concatenate S66x2048 0 [⟨S64x2048, a⟩, ⟨S1x2048, b⟩, ⟨S1x2048, d⟩] h (ix2 (⟨r.val, by omega⟩ : Fin 66) p) = a (ix2 r p) := by
  refine concatenate_apply_piece (0 : Fin S66x2048.rank) [⟨S64x2048, a⟩, ⟨S1x2048, b⟩, ⟨S1x2048, d⟩] h _ 0 (by simp)
    S64x2048 a rfl rfl 0 rfl (ix2 r p) ?_ ?_
  · intro e he
    match e with
    | ⟨0, _⟩ => exact (he (Fin.ext rfl)).elim
    | ⟨1, _⟩ => rfl
  · exact Nat.zero_add _

/-- Row 64 of that stack is the second piece's one row. -/
theorem stack_mid2048 (a : S64x2048.Idx → α) (b d : S1x2048.Idx → α)
    (h : Shape.Concatenates [S64x2048, S1x2048, S1x2048] S66x2048 0) (p : Fin 2048) :
    concatenate S66x2048 0 [⟨S64x2048, a⟩, ⟨S1x2048, b⟩, ⟨S1x2048, d⟩] h (ix2 (⟨64, by omega⟩ : Fin 66) p) = b (ix2 (0 : Fin 1) p) := by
  refine concatenate_apply_piece (0 : Fin S66x2048.rank) [⟨S64x2048, a⟩, ⟨S1x2048, b⟩, ⟨S1x2048, d⟩] h _ 1 (by simp)
    S1x2048 b rfl rfl 64 rfl (ix2 (0 : Fin 1) p) ?_ ?_
  · intro e he
    match e with
    | ⟨0, _⟩ => exact (he (Fin.ext rfl)).elim
    | ⟨1, _⟩ => rfl
  · rfl

/-- Row 65 of that stack is the third piece's one row. -/
theorem stack_last2048 (a : S64x2048.Idx → α) (b d : S1x2048.Idx → α)
    (h : Shape.Concatenates [S64x2048, S1x2048, S1x2048] S66x2048 0) (p : Fin 2048) :
    concatenate S66x2048 0 [⟨S64x2048, a⟩, ⟨S1x2048, b⟩, ⟨S1x2048, d⟩] h (ix2 (⟨65, by omega⟩ : Fin 66) p) = d (ix2 (0 : Fin 1) p) := by
  refine concatenate_apply_piece (0 : Fin S66x2048.rank) [⟨S64x2048, a⟩, ⟨S1x2048, b⟩, ⟨S1x2048, d⟩] h _ 2 (by simp)
    S1x2048 d rfl rfl 65 rfl (ix2 (0 : Fin 1) p) ?_ ?_
  · intro e he
    match e with
    | ⟨0, _⟩ => exact (he (Fin.ext rfl)).elim
    | ⟨1, _⟩ => rfl
  · rfl

/-- Rows 0..63 of a [64, 1024] piece stacked over two [1, 1024] pieces are the first piece's rows. -/
theorem stack_top1024 (a : S64x1024.Idx → α) (b d : S1x1024.Idx → α)
    (h : Shape.Concatenates [S64x1024, S1x1024, S1x1024] S66x1024 0) (r : Fin 64) (p : Fin 1024) :
    concatenate S66x1024 0 [⟨S64x1024, a⟩, ⟨S1x1024, b⟩, ⟨S1x1024, d⟩] h (ix2 (⟨r.val, by omega⟩ : Fin 66) p) = a (ix2 r p) := by
  refine concatenate_apply_piece (0 : Fin S66x1024.rank) [⟨S64x1024, a⟩, ⟨S1x1024, b⟩, ⟨S1x1024, d⟩] h _ 0 (by simp)
    S64x1024 a rfl rfl 0 rfl (ix2 r p) ?_ ?_
  · intro e he
    match e with
    | ⟨0, _⟩ => exact (he (Fin.ext rfl)).elim
    | ⟨1, _⟩ => rfl
  · exact Nat.zero_add _

/-- Row 64 of that stack is the second piece's one row. -/
theorem stack_mid1024 (a : S64x1024.Idx → α) (b d : S1x1024.Idx → α)
    (h : Shape.Concatenates [S64x1024, S1x1024, S1x1024] S66x1024 0) (p : Fin 1024) :
    concatenate S66x1024 0 [⟨S64x1024, a⟩, ⟨S1x1024, b⟩, ⟨S1x1024, d⟩] h (ix2 (⟨64, by omega⟩ : Fin 66) p) = b (ix2 (0 : Fin 1) p) := by
  refine concatenate_apply_piece (0 : Fin S66x1024.rank) [⟨S64x1024, a⟩, ⟨S1x1024, b⟩, ⟨S1x1024, d⟩] h _ 1 (by simp)
    S1x1024 b rfl rfl 64 rfl (ix2 (0 : Fin 1) p) ?_ ?_
  · intro e he
    match e with
    | ⟨0, _⟩ => exact (he (Fin.ext rfl)).elim
    | ⟨1, _⟩ => rfl
  · rfl

/-- Row 65 of that stack is the third piece's one row. -/
theorem stack_last1024 (a : S64x1024.Idx → α) (b d : S1x1024.Idx → α)
    (h : Shape.Concatenates [S64x1024, S1x1024, S1x1024] S66x1024 0) (p : Fin 1024) :
    concatenate S66x1024 0 [⟨S64x1024, a⟩, ⟨S1x1024, b⟩, ⟨S1x1024, d⟩] h (ix2 (⟨65, by omega⟩ : Fin 66) p) = d (ix2 (0 : Fin 1) p) := by
  refine concatenate_apply_piece (0 : Fin S66x1024.rank) [⟨S64x1024, a⟩, ⟨S1x1024, b⟩, ⟨S1x1024, d⟩] h _ 2 (by simp)
    S1x1024 d rfl rfl 65 rfl (ix2 (0 : Fin 1) p) ?_ ?_
  · intro e he
    match e with
    | ⟨0, _⟩ => exact (he (Fin.ext rfl)).elim
    | ⟨1, _⟩ => rfl
  · rfl

end Stack

/-! ## The contraction over the 66 rows -/

/-- Where the product reads its operands: at result entry i and contraction position k, the left operand at row k,
    column i 0, the right operand at row k, column i 1. -/
theorem lhs_row (i : S2048x1024.Idx) (k : dot_S66x2048_S66x1024_S2048x1024_0_0_1_1_n_n.contr.Idx) :
    (dot_S66x2048_S66x1024_S2048x1024_0_0_1_1_n_n.lhsIdx i k 0).val = (k ⟨0, by decide⟩).val :=
  dot_S66x2048_S66x1024_S2048x1024_0_0_1_1_n_n.lhsIdx_val_of_single rfl i k
theorem lhs_col (i : S2048x1024.Idx) (k : dot_S66x2048_S66x1024_S2048x1024_0_0_1_1_n_n.contr.Idx) :
    (dot_S66x2048_S66x1024_S2048x1024_0_0_1_1_n_n.lhsIdx i k 1).val = (i 0).val := by
  unfold DotDims.lhsIdx
  rw [dif_neg (show ¬(1 : Fin S66x2048.rank) ∈ dot_S66x2048_S66x1024_S2048x1024_0_0_1_1_n_n.lhsBatch by decide),
    dif_pos (show (1 : Fin S66x2048.rank) ∈ dot_S66x2048_S66x1024_S2048x1024_0_0_1_1_n_n.lhsNonContracting by decide)]
  rfl
theorem rhs_row (i : S2048x1024.Idx) (k : dot_S66x2048_S66x1024_S2048x1024_0_0_1_1_n_n.contr.Idx) :
    (dot_S66x2048_S66x1024_S2048x1024_0_0_1_1_n_n.rhsIdx i k 0).val = (k ⟨0, by decide⟩).val :=
  dot_S66x2048_S66x1024_S2048x1024_0_0_1_1_n_n.rhsIdx_val_of_single rfl i k
theorem rhs_col (i : S2048x1024.Idx) (k : dot_S66x2048_S66x1024_S2048x1024_0_0_1_1_n_n.contr.Idx) :
    (dot_S66x2048_S66x1024_S2048x1024_0_0_1_1_n_n.rhsIdx i k 1).val = (i 1).val := by
  unfold DotDims.rhsIdx
  rw [dif_neg (show ¬(1 : Fin S66x1024.rank) ∈ dot_S66x2048_S66x1024_S2048x1024_0_0_1_1_n_n.rhsBatch by decide),
    dif_pos (show (1 : Fin S66x1024.rank) ∈ dot_S66x2048_S66x1024_S2048x1024_0_0_1_1_n_n.rhsNonContracting by decide)]
  rfl

/-- The body's matrix product contracts axis 0 of both operands: entry (p, q) is the sum over the 66 rows k of
    left (k, p) times right (k, q). -/
theorem contract66 (A : FVec Ideal S66x2048 .f32) (B : FVec Ideal S66x1024 .f32) (p : Fin 2048) (q : Fin 1024) :
    matmul (F := Ideal) dot_S66x2048_S66x1024_S2048x1024_0_0_1_1_n_n none A B (constant S2048x1024 .f32 0x00000000#32) (ix2 p q)
      = ∑ k : Fin 66, A (ix2 k p) * B (ix2 k q) := by
  simp only [matmul]
  rw [Ideal.matmul_constant_zero_apply, ← Equiv.sum_comp (contrEquiv1 dot_S66x2048_S66x1024_S2048x1024_0_0_1_1_n_n 66 rfl rfl).symm]
  refine Finset.sum_congr rfl fun k _ => ?_
  have hk := contrEquiv1_symm_val dot_S66x2048_S66x1024_S2048x1024_0_0_1_1_n_n 66 rfl rfl k
  have el : dot_S66x2048_S66x1024_S2048x1024_0_0_1_1_n_n.lhsIdx (ix2 p q) ((contrEquiv1 dot_S66x2048_S66x1024_S2048x1024_0_0_1_1_n_n 66 rfl rfl).symm k) = ix2 k p :=
    funext fun a => Fin.ext (by
      match a with
      | ⟨0, _⟩ => exact (lhs_row _ _).trans hk
      | ⟨1, _⟩ => exact lhs_col _ _)
  have er : dot_S66x2048_S66x1024_S2048x1024_0_0_1_1_n_n.rhsIdx (ix2 p q) ((contrEquiv1 dot_S66x2048_S66x1024_S2048x1024_0_0_1_1_n_n 66 rfl rfl).symm k) = ix2 k q :=
    funext fun a => Fin.ext (by
      match a with
      | ⟨0, _⟩ => exact (rhs_row _ _).trans hk
      | ⟨1, _⟩ => exact rhs_col _ _)
  rw [el, er]

/-! ## The two operands of 66 rows, and the body's result at an entry -/

/-- The left operand from the key block v (channel, token): v + v, then the row 0 − Σ_c v(c,·)², then the row of ones. -/
def keyRows (v : FVec Ideal S64x2048 .f32) : FVec Ideal S66x2048 .f32 :=
  concatenate S66x2048 0
    [⟨S64x2048, addf v v⟩,
     ⟨S1x2048, subf (broadcast S1x2048 (Scalar.ofBits (F := Ideal) .f32 0x00000000#32))
        (shapeCast S1x2048 (multiReduction (F := Ideal) .add [0] S2048 (mulf v v) 0x00000000#32 reduces_S64x2048_S2048 (.inl rfl) rfl)
          shapeCasts_S2048_S1x2048)⟩,
     ⟨S1x2048, broadcast S1x2048 (Scalar.ofBits (F := Ideal) .f32 0x3F800000#32)⟩]
    concatenates_S64x2048_S1x2048_S1x2048_S66x2048_d0

/-- The right operand from the code table w (channel, code): w, then the row of ones, then the row 0 − Σ_c w(c,·)². -/
def codeRows (w : FVec Ideal S64x1024 .f32) : FVec Ideal S66x1024 .f32 :=
  concatenate S66x1024 0
    [⟨S64x1024, w⟩,
     ⟨S1x1024, broadcast S1x1024 (Scalar.ofBits (F := Ideal) .f32 0x3F800000#32)⟩,
     ⟨S1x1024, subf (broadcast S1x1024 (Scalar.ofBits (F := Ideal) .f32 0x00000000#32))
        (shapeCast S1x1024 (multiReduction (F := Ideal) .add [0] S1024 (mulf w w) 0x00000000#32 reduces_S64x1024_S1024 (.inl rfl) rfl)
          shapeCasts_S1024_S1x1024)⟩]
    concatenates_S64x1024_S1x1024_S1x1024_S66x1024_d0

theorem keyRows_top (v : FVec Ideal S64x2048 .f32) (r : Fin 64) (p : Fin 2048) :
    keyRows v (ix2 (⟨r.val, by omega⟩ : Fin 66) p) = v (ix2 r p) + v (ix2 r p) :=
  stack_top2048 _ _ _ _ r p

theorem keyRows_norm (v : FVec Ideal S64x2048 .f32) (p : Fin 2048) :
    keyRows v (ix2 (⟨64, by omega⟩ : Fin 66) p) = wZero - ∑ c : Fin 64, v (ix2 c p) * v (ix2 c p) := by
  refine (stack_mid2048 _ _ _ _ p).trans ?_
  show wZero - shapeCast S1x2048 _ shapeCasts_S2048_S1x2048 (ix2 (0 : Fin 1) p) = _
  rw [shapeCast_a_1a_apply, colSum2048]
  rfl

theorem keyRows_one (v : FVec Ideal S64x2048 .f32) (p : Fin 2048) :
    keyRows v (ix2 (⟨65, by omega⟩ : Fin 66) p) = wOne :=
  stack_last2048 _ _ _ _ p

theorem codeRows_top (w : FVec Ideal S64x1024 .f32) (r : Fin 64) (q : Fin 1024) :
    codeRows w (ix2 (⟨r.val, by omega⟩ : Fin 66) q) = w (ix2 r q) :=
  stack_top1024 _ _ _ _ r q

theorem codeRows_one (w : FVec Ideal S64x1024 .f32) (q : Fin 1024) :
    codeRows w (ix2 (⟨64, by omega⟩ : Fin 66) q) = wOne :=
  stack_mid1024 _ _ _ _ q

theorem codeRows_norm (w : FVec Ideal S64x1024 .f32) (q : Fin 1024) :
    codeRows w (ix2 (⟨65, by omega⟩ : Fin 66) q) = wZero - ∑ c : Fin 64, w (ix2 c q) * w (ix2 c q) := by
  refine (stack_last1024 _ _ _ _ q).trans ?_
  show wZero - shapeCast S1x1024 _ shapeCasts_S1024_S1x1024 (ix2 (0 : Fin 1) q) = _
  rw [shapeCast_a_1a_apply, colSum1024]
  rfl

/-- The body's stored value is the contraction of the two operands built from its two loads. -/
theorem payload_eq (x0 : Vec Ideal S64x2048 .f32) (x1 : Vec Ideal S64x1024 .f32) :
    k0_pay1 (F := Ideal) x0 x1
      = matmul (F := Ideal) dot_S66x2048_S66x1024_S2048x1024_0_0_1_1_n_n none (keyRows x0) (codeRows x1)
          (constant S2048x1024 .f32 0x00000000#32) := by
  have e : k0_pay1 (F := Ideal) x0 x1
      = matmul (F := Ideal) dot_S66x2048_S66x1024_S2048x1024_0_0_1_1_n_n none
          (keyRows (shapeCast S64x2048 x0 shapeCasts_S64x2048_S64x2048)) (codeRows (shapeCast S64x1024 x1 shapeCasts_S64x1024_S64x1024))
          (constant S2048x1024 .f32 0x00000000#32) := rfl
  rw [e, shapeCast_self, shapeCast_self]

/-- Entry (p, q) of the body's result: the 64 channel terms, then the two norm terms. -/
theorem payload_apply (x0 : Vec Ideal S64x2048 .f32) (x1 : Vec Ideal S64x1024 .f32) (p : Fin 2048) (q : Fin 1024) :
    k0_pay1 (F := Ideal) x0 x1 (ix2 p q)
      = ((∑ c : Fin 64, (x0 (ix2 c p) + x0 (ix2 c p)) * x1 (ix2 c q))
          + (wZero - ∑ c : Fin 64, x0 (ix2 c p) * x0 (ix2 c p)) * wOne)
        + wOne * (wZero - ∑ c : Fin 64, x1 (ix2 c q) * x1 (ix2 c q)) := by
  rw [payload_eq]
  refine (contract66 _ _ p q).trans ?_
  refine (sum_two_more 64 _).trans ?_
  rw [keyRows_norm, keyRows_one, codeRows_one, codeRows_norm]
  refine congrArg (· + _ + _) (Finset.sum_congr rfl fun c _ => ?_)
  rw [keyRows_top, codeRows_top]

end Cert.SqDist.Body

end
-- ==== Proof.Blocks.lean ====
/-
  From what each grid point writes back to the whole result array.

  The kernel's host part transposes the keys to [64, 32768] (channel, token) and the codes to [64, 1024] (channel, code).
  Grid point t (of 16) reads columns 2048·t .. 2048·t + 2047 of the transposed keys and the whole transposed code table,
  and writes rows 2048·t .. 2048·t + 2047 of the [32768, 1024] result. So entry (c, p) of its key block is key entry
  (2048·t + p, c), entry (c, q) of its code block is code entry (q, c), and entry (p, q) of what it writes is entry
  (2048·t + p, q) of the kernel's arrangement `augmented` of the two argument arrays. The 16 row blocks tile the result.
-/
import proofs.«154272_g72164040507785_cont_sun_m_596_19_alg».proof.Proof.Gen.KernelIdeal.Value
import proofs.«154272_g72164040507785_cont_sun_m_596_19_alg».proof.Proof.Payload
import Idealize.ShloMosaic.Lib.Pipeline.Value
import Idealize.ShloMosaic.Lib.StableHlo.Run
import Idealize.ShloMosaic.Lib.Tactic

noncomputable section

namespace Cert.SqDist.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.SqDist Cert.SqDist.Body

variable (m : (ℓ : Loc nD τ sig) → Buf (Elt Ideal) ℓ) (ρ : Dev nD → PrngReg)

theorem hz : (![0, 0] : Fin 2 → Nat) = fun _ => 0 := funext fun a => by fin_cases a <;> rfl

/-- The block index of each window at each grid point, decided over the 16 points: the key window moves along its
    token axis, the code window stays, the result window moves along its row axis. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The region finds the transposed keys in the key window's array, -/
theorem keysT (c : Dev nD) :
    (V m c main_call0_v0 : (⟨S64x32768, .f32⟩ : BufTy).Contents (Elt Ideal))
      = transpose S64x32768 [1, 0] (m ((c : Thread nD τ).loc main_arg0)) transposes_S32768x64_S64x32768_1_0 := by
  dsimp only [Gen.V, Gen.hostOps0]; after_results; rfl

/-- and the transposed codes in the code window's array. -/
theorem codesT (c : Dev nD) :
    (V m c main_call0_v1 : (⟨S64x1024, .f32⟩ : BufTy).Contents (Elt Ideal))
      = transpose S64x1024 [1, 0] (m ((c : Thread nD τ).loc main_arg1)) transposes_S1024x64_S64x1024_1_0 := by
  dsimp only [Gen.V, Gen.hostOps0]; after_results; rfl

/-- Entry (ch, p) of point t's key block is key entry (2048·t + p, ch). -/
theorem keys_block (c : Dev nD) (t : Fin cfg0.N) (ch : Fin 64) (p : Fin 2048) (n : Fin 32768)
    (hn : n.val = t.val * 2048 + p.val) :
    (iblk m c 0 t : Vec Ideal S64x2048 .f32) (ix2 ch p)
      = (m ((c : Thread nD τ).loc main_arg0) : S32768x64.Idx → EReal) (ix2 n ch) := by
  obtain ⟨e0, e1, -, -, -, -⟩ := idx_facts t
  unfold iblk
  rw [View.read_apply]
  show V m c main_call0_v0 _ = _
  rw [keysT]
  refine transpose_apply [1, 0] _ _ _ (ix2 n ch) fun b => ?_
  match b with
  | ⟨0, _⟩ => show ch.val = win0_0.index t (0 : Fin 2) * 64 + 1 * ch.val; omega
  | ⟨1, _⟩ => show n.val = win0_0.index t (1 : Fin 2) * 2048 + 1 * p.val; omega

/-- Entry (ch, q) of the code block, at every point, is code entry (q, ch). -/
theorem codes_block (c : Dev nD) (t : Fin cfg0.N) (ch : Fin 64) (q : Fin 1024) :
    (iblk m c 1 t : Vec Ideal S64x1024 .f32) (ix2 ch q)
      = (m ((c : Thread nD τ).loc main_arg1) : S1024x64.Idx → EReal) (ix2 q ch) := by
  obtain ⟨-, -, e0, e1, -, -⟩ := idx_facts t
  unfold iblk
  rw [View.read_apply]
  show V m c main_call0_v1 _ = _
  rw [codesT]
  refine transpose_apply [1, 0] _ _ _ (ix2 q ch) fun b => ?_
  match b with
  | ⟨0, _⟩ => show ch.val = win0_1.index t (0 : Fin 2) * 64 + 1 * ch.val; omega
  | ⟨1, _⟩ => show q.val = win0_1.index t (1 : Fin 2) * 1024 + 1 * q.val; omega

/-- What point t writes back is its row block of the kernel's arrangement of the two argument arrays. -/
theorem flushed_eq (c : Dev nD) (t : Fin cfg0.N) :
    (dats m 0 c).flushed 2 t = ((cfg0.win 2).blk t).view.read (Elt Ideal)
      (augmented (m ((c : Thread nD τ).loc main_arg0)) (m ((c : Thread nD τ).loc main_arg1))) := by
  have ht : t.val < 16 := lt_of_lt_of_eq t.isLt N_0
  obtain ⟨-, -, -, -, e0, e1⟩ := idx_facts t
  rw [Value.flushed2]
  unfold out0_2
  rw [View.canon_unit_zero hz]
  simp only [View.ld_unit_zero (S := S64x2048) hz, View.ld_unit_zero (S := S64x1024) hz]
  funext j
  obtain ⟨p, q, rfl⟩ : ∃ (p : Fin 2048) (q : Fin 1024), j = ix2 p q := ⟨j 0, j 1, eq_ix2 j⟩
  show k0_pay1 (iblk m c 0 t) (iblk m c 1 t) (ix2 p q) = augmented _ _ (((cfg0.win 2).blk t).view.emb (ix2 p q))
  refine (payload_apply (iblk m c 0 t) (iblk m c 1 t) p q).trans ?_
  have he : ((cfg0.win 2).blk t).view.emb (ix2 p q) = ix2 (⟨t.val * 2048 + p.val, by omega⟩ : Fin 32768) q :=
    funext fun a => Fin.ext (by
      match a with
      | ⟨0, _⟩ => show win0_2.index t (0 : Fin 2) * 2048 + 1 * p.val = t.val * 2048 + p.val; omega
      | ⟨1, _⟩ => show win0_2.index t (1 : Fin 2) * 1024 + 1 * q.val = q.val; omega)
  rw [he]
  have hk : ∀ ch : Fin 64, (iblk m c 0 t : Vec Ideal S64x2048 .f32) (ix2 ch p)
      = (m ((c : Thread nD τ).loc main_arg0) : S32768x64.Idx → EReal) (ix2 (⟨t.val * 2048 + p.val, by omega⟩ : Fin 32768) ch) :=
    fun ch => keys_block m c t ch p _ rfl
  have hc : ∀ ch : Fin 64, (iblk m c 1 t : Vec Ideal S64x1024 .f32) (ix2 ch q)
      = (m ((c : Thread nD τ).loc main_arg1) : S1024x64.Idx → EReal) (ix2 q ch) :=
    fun ch => codes_block m c t ch q
  simp only [hk, hc]
  rfl

/-- An index of the result is in point t's block iff each coordinate is in the block's range on its axis. -/
theorem mem_blk (t : Fin cfg0.N) (i : S32768x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- Row r of the result lies in the block of point r / 2048: the 16 blocks tile the array. -/
theorem cover (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : cfg0.N = 16 := N_0
  refine ⟨⟨(i 0).val / 2048, by rw [hN]; omega⟩, flush0_2 _, ?_⟩
  rw [mem_blk]
  obtain ⟨-, -, -, -, e0, e1⟩ := idx_facts ⟨(i 0).val / 2048, by rw [hN]; omega⟩
  intro a
  match a with
  | ⟨0, _⟩ =>
    show win0_2.index _ (0 : Fin 2) * 2048 ≤ (i 0).val ∧ (i 0).val < win0_2.index _ (0 : Fin 2) * 2048 + 2048
    rw [e0]
    show (i 0).val / 2048 * 2048 ≤ (i 0).val ∧ (i 0).val < (i 0).val / 2048 * 2048 + 2048
    omega
  | ⟨1, _⟩ =>
    show win0_2.index _ (1 : Fin 2) * 1024 ≤ (i 1).val ∧ (i 1).val < win0_2.index _ (1 : Fin 2) * 1024 + 1024
    rw [e1]
    omega

/-- So the result array ends holding the kernel's arrangement of the two argument arrays. -/
theorem final (c : Dev nD) :
    (dats m 0 c).arrAt 2 cfg0.N
      = augmented (m ((c : Thread nD τ).loc main_arg0)) (m ((c : Thread nD τ).loc main_arg1)) :=
  (dats m 0 c).arrAt_eq_of_cover 2 _ (fun t _ => flushed_eq m c t) cover

/-- The kernel's run, read: the result at the kernel's arrangement, the arguments unchanged. -/
theorem run : θ_run defs (onTc (τ := τ) (main (F := Ideal))) ⟨m, fun _ => 0, ρ⟩ fun r => ∀ c : Dev nD,
      r.2.mem ((c : Thread nD τ).loc main_v0)
        = augmented (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.SqDist.Blocks

end
-- ==== Proof.RefSide.lean ====
/-
  The reference program's result, read one operation at a time, is the expanded square of Spec:
  entry (n, k) is −((0 + Σ_c K(n,c)²) − 2·Σ_c K(n,c)·E(k,c) + (0 + Σ_c E(k,c)²)).
  The reference transposes the codes before its product; read at an index the transposition only swaps the two coordinates.
-/
import proofs.«154272_g72164040507785_cont_sun_m_596_19_alg».proof.Proof.Gen.ReferenceIdeal.Read
import proofs.«154272_g72164040507785_cont_sun_m_596_19_alg».proof.Proof.Spec

noncomputable section

namespace Cert.SqDist.Ref

open Cert.ReferenceIdeal Cert.ReferenceIdeal.Read Idealize.ShloMosaic Idealize.ShloMosaic.ValueIdx

/-- The indices the reference's stages read, as (row, channel) pairs. -/
theorem keyNorm_idx (i : S32768x1024.Idx) (k : Fin 64) :
    idx_main_v1 (idx_main_v2 (idx_main_v9 i)) k = ix2 (i 0) k :=
  funext fun a => Fin.ext (by match a with | ⟨0, _⟩ => rfl | ⟨1, _⟩ => rfl)
theorem cross_lidx (i : S32768x1024.Idx) (k : Fin 64) : lidx_main_v6 i k = ix2 (i 0) k :=
  funext fun a => Fin.ext (by match a with | ⟨0, _⟩ => rfl | ⟨1, _⟩ => rfl)
theorem cross_ridx (i : S32768x1024.Idx) (k : Fin 64) : idx_main_v5 (ridx_main_v6 i k) = ix2 (i 1) k :=
  funext fun a => Fin.ext (by match a with | ⟨0, _⟩ => rfl | ⟨1, _⟩ => rfl)
theorem codeNorm_idx (i : S32768x1024.Idx) (k : Fin 64) :
    idx_main_v4 (idx_main_v11 (idx_main_v12 i)) k = ix2 (i 1) k :=
  funext fun a => Fin.ext (by match a with | ⟨0, _⟩ => rfl | ⟨1, _⟩ => rfl)

/-- The reference's last stage is the expanded square. -/
theorem reference_is_expanded (K : FVec Ideal S32768x64 .f32) (E : FVec Ideal S1024x64 .f32) :
    val_main_v14 (F := Ideal) K E = expanded K E := by
  funext i
  rw [val_main_v14_apply, val_main_v13_apply, val_main_v10_apply, val_main_v9_apply, val_main_v2_apply, val_main_v1_apply,
    val_main_v8_apply, val_main_v7_apply, val_main_v6_apply, val_main_v12_apply, val_main_v11_apply, val_main_v4_apply]
  simp only [val_main_v0_apply, val_main_v3_apply, val_main_v5_apply, val_main_cst_apply, val_main_cst_0_apply,
    val_main_cst_1_apply, keyNorm_idx, cross_lidx, cross_ridx, codeNorm_idx]
  rfl

end Cert.SqDist.Ref

end
-- ==== Proof.Consts.lean ====
/-
  The float words the two programs spell, as the extended reals they denote: 1.0 (the unit rows the kernel appends to
  its two matmul operands) and 2.0 (the reference's factor on the cross term). The zero word is the library's
  `Ideal.ofBits_zero_f32`.
-/
import Idealize.ShloMosaic.PureOps.Ideal

noncomputable section

namespace Cert.SqDist.Consts

open Idealize.ShloMosaic

/-- The f32 word 0x3F800000 is the number 1. -/
theorem ofBits_one : Ideal.ofBits .f32 0x3F800000#32 = 1 := by
  simp [Ideal.ofBits, Ideal.ieee, -EReal.coe_mul]; norm_num

/-- The f32 word 0x40000000 is the number 2. -/
theorem ofBits_two : Ideal.ofBits .f32 0x40000000#32 = 2 := by
  simp [Ideal.ofBits, Ideal.ieee, -EReal.coe_mul]; norm_num
  rfl

end Cert.SqDist.Consts

end
-- ==== Proof.Bridge.lean ====
/-
  The two arrangements of the negative squared distance agree when every entry is a real number.

  With the words 0, 1, 2 read as the numbers they denote and every entry a real number, the kernel's
    Σ_c (K(n,c) + K(n,c))·E(k,c) + (0 − ‖K n‖²)·1 + 1·(0 − ‖E k‖²)
  and the reference's
    −((0 + ‖K n‖²) − 2·⟨K n, E k⟩ + (0 + ‖E k‖²))
  are one real number (Spec's identity).
-/
import proofs.«154272_g72164040507785_cont_sun_m_596_19_alg».proof.Proof.Spec
import proofs.«154272_g72164040507785_cont_sun_m_596_19_alg».proof.Proof.Consts
import Idealize.ShloMosaic.PureOps.Ideal.Laws

noncomputable section

namespace Cert.SqDist

open Idealize.ShloMosaic Idealize.ShloMosaic.ValueIdx

theorem augmented_eq_expanded (K : SKeys.Idx → EReal) (E : SCodes.Idx → EReal)
    (hK : ∀ i, ∃ r : ℝ, K i = r) (hE : ∀ i, ∃ r : ℝ, E i = r) : augmented K E = expanded K E := by
  choose k hk using hK
  choose e he using hE
  funext i
  unfold augmented expanded keyNorm codeNorm cross
  simp only [hk, he, wZero, wOne, wTwo, Ideal.ofBits_zero_f32, Consts.ofBits_one, Consts.ofBits_two]
  exact ereal_identity (fun c => k (ix2 (i 0) c)) (fun c => e (ix2 (i 1) c))

end Cert.SqDist

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  What the precondition says at the extended reals: every entry of the keys and of the codes is a real number.

  The precondition is one bit: (all |keys| < +∞) and (all |codes| < +∞). The bit being 1 gives each "all" at 1, an "all"
  at 1 gives its comparison bit at every entry, and an extended real whose absolute value is below +∞ is a real number.
-/
import proofs.«154272_g72164040507785_cont_sun_m_596_19_alg».proof.Pre_finite_inputs
import proofs.«154272_g72164040507785_cont_sun_m_596_19_alg».proof.Proof.LibSums
import Idealize.ShloMosaic.Lib.ReduceAll
import Idealize.ShloMosaic.Lib.ValueIdx
import Idealize.ShloMosaic.Lib.Pipeline.Value
import Idealize.ShloMosaic.PureOps.Ideal

noncomputable section

namespace Cert.SqDist.Finite

open Idealize.ShloMosaic Cert.Pre_finite_inputs

/-- A rank-0 array has one index. -/
instance : Subsingleton S_.Idx := ⟨fun _ _ => funext fun d => d.elim0⟩

/-- One entry's comparison bit |x| < +∞ being 1 makes the entry a real number. -/
theorem real_of_bit {S : Shape} (X : FVec Ideal S .f32) (hb : S_.BroadcastsInDim S (![] : Fin 0 → Fin S.rank)) (i : S.Idx)
    (e : cmpf .olt (Host.absf X) (broadcastInDim S ![] hb (constant (F := Ideal) S_ .f32 0x7F800000#32)) i = 1#1) :
    ∃ r : ℝ, X i = r := by
  refine Cert.LibSums.real_of_finite_bit (X i) ?_
  have eb : broadcastInDim S ![] hb (constant (F := Ideal) S_ .f32 0x7F800000#32) i = Ideal.ofBits .f32 0x7F800000#32 :=
    broadcastInDim_apply _ hb _ i (fun a => a.elim0) (fun a => a.elim0)
  have e' : Ideal.cmp .olt (max (X i) (-(X i)))
      (broadcastInDim S ![] hb (constant (F := Ideal) S_ .f32 0x7F800000#32) i) = 1#1 := e
  rw [eb] at e'
  exact e'

variable [Cert.Pre_finite_inputs.Facts]

/-- Under the precondition every key entry and every code entry is a real number. -/
theorem real_of_pre (K : FVec Ideal S32768x64 .f32) (E : FVec Ideal S1024x64 .f32)
    (h : Cert.Pre_finite_inputs.fn (F := Ideal) K E = fun _ => 1#1) :
    (∀ i, ∃ r : ℝ, K i = r) ∧ (∀ i, ∃ r : ℝ, E i = r) := by
  have h0 := congrFun h ValueIdx.ix0
  dsimp only [Cert.Pre_finite_inputs.fn] at h0
  obtain ⟨hK, hE⟩ := IntOp.andi_eq_one.1 h0
  refine ⟨fun i => ?_, fun i => ?_⟩
  · exact real_of_bit K _ i (Host.reduce_andi_all _ _ _ _ _ hK i)
  · exact real_of_bit E _ i (Host.reduce_andi_all _ _ _ _ _ hE i)

end Cert.SqDist.Finite

end
-- ==== Proof.lean ====
/-
  The kernel and the reference both compute, for 32768 keys and 1024 codes of 64 channels, the negative squared
  distance −‖K n − E k‖² at every pair (n, k).

  The reference expands the square: −((‖K n‖² − 2·⟨K n, E k⟩) + ‖E k‖²).
  The kernel transposes both arrays, and at each of 16 grid points contracts a block of 2048 keys against the whole code
  table over 66 rows: 64 channel rows carrying (K + K)·E and two extra rows carrying (0 − ‖K n‖²)·1 and 1·(0 − ‖E k‖²).
  The modules: Spec (the two arrangements and the identity between them on real numbers), Consts (the words 1.0 and 2.0),
  Bridge (the two arrangements agree when every entry is a real number), Finite (the precondition makes every entry a
  real number), Payload (one grid point's result at an entry), Blocks (the 16 row blocks tile the result array),
  RefSide (the reference's stages read at an index). No rewrite was applied when the kernel was idealized, so the
  idealization claim is trivial; the three frames are the generated runs.
-/
import proofs.«154272_g72164040507785_cont_sun_m_596_19_alg».proof.Defs
import proofs.«154272_g72164040507785_cont_sun_m_596_19_alg».proof.Proof.Gen.Kernel
import proofs.«154272_g72164040507785_cont_sun_m_596_19_alg».proof.Proof.Gen.Kernel.Skeleton
import proofs.«154272_g72164040507785_cont_sun_m_596_19_alg».proof.Proof.Gen.Kernel.Launch
import proofs.«154272_g72164040507785_cont_sun_m_596_19_alg».proof.Proof.Gen.Kernel.Points
import proofs.«154272_g72164040507785_cont_sun_m_596_19_alg».proof.Proof.Gen.Kernel.Frame
import proofs.«154272_g72164040507785_cont_sun_m_596_19_alg».proof.Proof.Gen.KernelIdeal
import proofs.«154272_g72164040507785_cont_sun_m_596_19_alg».proof.Proof.Gen.KernelIdeal.Skeleton
import proofs.«154272_g72164040507785_cont_sun_m_596_19_alg».proof.Proof.Gen.KernelIdeal.Launch
import proofs.«154272_g72164040507785_cont_sun_m_596_19_alg».proof.Proof.Gen.KernelIdeal.Points
import proofs.«154272_g72164040507785_cont_sun_m_596_19_alg».proof.Proof.Gen.KernelIdeal.Frame
import proofs.«154272_g72164040507785_cont_sun_m_596_19_alg».proof.Proof.Gen.ReferenceIdeal
import proofs.«154272_g72164040507785_cont_sun_m_596_19_alg».proof.Proof.Gen.Pre_finite_inputs
import proofs.«154272_g72164040507785_cont_sun_m_596_19_alg».proof.Proof.Gen.KernelIdeal.Value
import proofs.«154272_g72164040507785_cont_sun_m_596_19_alg».proof.Proof.Gen.ReferenceIdeal.Run
import proofs.«154272_g72164040507785_cont_sun_m_596_19_alg».proof.Proof.Gen.ReferenceIdeal.Read
import proofs.«154272_g72164040507785_cont_sun_m_596_19_alg».proof.Proof.Blocks
import proofs.«154272_g72164040507785_cont_sun_m_596_19_alg».proof.Proof.RefSide
import proofs.«154272_g72164040507785_cont_sun_m_596_19_alg».proof.Proof.Bridge
import proofs.«154272_g72164040507785_cont_sun_m_596_19_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at its own arrangement of the argument arrays (no finiteness used); the reference's
    ends at the expanded square of arrays that agree with them; under the precondition every entry is a real number,
    and there the two arrangements are one function. -/
theorem algebraic : Cert.algebraic_KernelIdeal_ReferenceIdeal := by
  intro m ρ m' ρ' hpre hagree
  refine ⟨fun c => Cert.SqDist.augmented (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.SqDist.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨hK, hE⟩ := Cert.SqDist.Finite.real_of_pre _ _ (hpre c)
  rw [Cert.ReferenceIdeal.Read.val_main_v14_eq, Cert.SqDist.Ref.reference_is_expanded, (hagree c).1, (hagree c).2]
  exact (Cert.SqDist.augmented_eq_expanded _ _ hK hE).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
